-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100000x32 : Shape := ⟨3, ![4, 100000, 32]⟩
abbrev S1600000 : Shape := ⟨1, ![1600000]⟩
abbrev S128x64 : Shape := ⟨2, ![128, 64]⟩
abbrev S_ : Shape := ⟨0, ![]⟩

class Facts : Prop where
  bcast_S_S4x100000x32 : S_.BroadcastsInDim S4x100000x32 (![] : Fin 0 → Fin S4x100000x32.rank)
  reducesTo_S4x100000x32_S_d0_1_2 : S4x100000x32.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S4x100000x32 .f32) (main_arg1 : FVec F S1600000 .f32) (main_arg2 : FVec F S128x64 .f32) (main_arg3 : IVec S1600000 32) (main_arg4 : IVec S1600000 32) : IVec S_ 1 :=
  let main_v0 : FVec F S4x100000x32 .f32 := Host.absf main_arg0
  let main_cst : FVec F S_ .f32 := constant S_ .f32 0x7F800000#32
  let main_v1 : FVec F S4x100000x32 .f32 := broadcastInDim S4x100000x32 ![] bcast_S_S4x100000x32 main_cst
  let main_v2 : IVec S4x100000x32 1 := cmpf .olt main_v0 main_v1
  let main_c : IVec S_ 1 := constantI S_ 1 1#1
  let main_v3 : IVec S_ 1 := (fun x v => Host.reduce IntOp.andi x v reducesTo_S4x100000x32_S_d0_1_2 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S4x100000x32 : Shape := ⟨3, ![4, 100000, 32]⟩
abbrev S1600000 : Shape := ⟨1, ![1600000]⟩
abbrev S128x64 : Shape := ⟨2, ![128, 64]⟩
abbrev S100000x32x4 : Shape := ⟨3, ![100000, 32, 4]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x100000x128 : Shape := ⟨3, ![1, 100000, 128]⟩
abbrev S4x100000x128 : Shape := ⟨3, ![4, 100000, 128]⟩
abbrev S4x100000x32x4 : Shape := ⟨4, ![4, 100000, 32, 4]⟩
abbrev S400000x128 : Shape := ⟨2, ![400000, 128]⟩
abbrev S400000x64 : Shape := ⟨2, ![400000, 64]⟩
abbrev S16000x128 : Shape := ⟨2, ![16000, 128]⟩
abbrev S16000x64 : Shape := ⟨2, ![16000, 64]⟩
abbrev S4x100000x64 : Shape := ⟨3, ![4, 100000, 64]⟩

abbrev nBuf : Space → Nat
  | .hbm => 76
  | .vmem => 5
  | .smem => 0
  | _ => 0

abbrev bufTy : (tb : Table) → Fin (tcTables nBuf tb) → BufTy
  | .hbm, ⟨0, _⟩ => ⟨S4x100000x32, .f32⟩
  | .hbm, ⟨1, _⟩ => ⟨S1600000, .f32⟩
  | .hbm, ⟨2, _⟩ => ⟨S128x64, .f32⟩
  | .hbm, ⟨3, _⟩ => ⟨S1600000, .i32⟩
  | .hbm, ⟨4, _⟩ => ⟨S1600000, .i32⟩
  | .hbm, ⟨5, _⟩ => ⟨S100000x32x4, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x100000x128, .f32⟩
  | .hbm, ⟨67, _⟩ => ⟨S1x100000x128, .f32⟩
  | .hbm, ⟨68, _⟩ => ⟨S1x100000x128, .f32⟩
  | .hbm, ⟨69, _⟩ => ⟨S1x100000x128, .f32⟩
  | .hbm, ⟨70, _⟩ => ⟨S4x100000x128, .f32⟩
  | .hbm, ⟨71, _⟩ => ⟨S4x100000x32x4, .f32⟩
  | .hbm, ⟨72, _⟩ => ⟨S4x100000x32x4, .f32⟩
  | .hbm, ⟨73, _⟩ => ⟨S400000x128, .f32⟩
  | .hbm, ⟨74, _⟩ => ⟨S400000x64, .f32⟩
  | .hbm, ⟨75, _⟩ => ⟨S4x100000x64, .f32⟩
  | .local _ .vmem, ⟨0, _⟩ => ⟨S16000x128, .f32⟩
  | .local _ .vmem, ⟨1, _⟩ => ⟨S16000x128, .f32⟩
  | .local _ .vmem, ⟨2, _⟩ => ⟨S128x64, .f32⟩
  | .local _ .vmem, ⟨3, _⟩ => ⟨S16000x64, .f32⟩
  | .local _ .vmem, ⟨4, _⟩ => ⟨S16000x64, .f32⟩
  | _, _ => ⟨S4x100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x100000x32_S100000x32x4_1_2_0 : S4x100000x32.Transposes [1, 2, 0] S100000x32x4
  shapeCasts_S100000x32x4_S100000x128 : S100000x32x4.ShapeCasts S100000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  shapeCasts_S4x100000x128_S4x100000x32x4 : S4x100000x128.ShapeCasts S4x100000x32x4
  transposes_S4x100000x32x4_S4x100000x32x4_3_1_2_0 : S4x100000x32x4.Transposes [3, 1, 2, 0] S4x100000x32x4
  shapeCasts_S4x100000x32x4_S400000x128 : S4x100000x32x4.ShapeCasts S400000x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S16000x64_S16000x64_0_0 : ∀ a, (![0, 0] : Fin 2 → Nat) a + S16000x64.size a ≤ S16000x64.size a
  h_S16000x64 : 0 < S16000x64.numel
  shapeCasts_S400000x64_S4x100000x64 : S400000x64.ShapeCasts S4x100000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S16000x128_S128x64_S16000x64_1_0_0_1_n_n_wf : DotDims.WF S16000x128 S128x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S400000x128.size a
  hwx0_0 : ∀ i : grid0.Coords, EltTy.bits .f32 = 32 ∨ (Rect.block (s := S400000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S400000x64.size a
  hwx0_2 : ∀ i : grid0.Coords, EltTy.bits .f32 = 32 ∨ (Rect.block (s := S400000x64) S16000x64.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf

abbrev win0_0 : Pipeline.Window sig grid0 :=
  Pipeline.Window.ofSpec (Memref.whole main_v57) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x100000x32 : Shape := ⟨3, ![4, 100000, 32]⟩
abbrev S1600000 : Shape := ⟨1, ![1600000]⟩
abbrev S128x64 : Shape := ⟨2, ![128, 64]⟩
abbrev S100000x32x4 : Shape := ⟨3, ![100000, 32, 4]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x100000x128 : Shape := ⟨3, ![1, 100000, 128]⟩
abbrev S4x100000x128 : Shape := ⟨3, ![4, 100000, 128]⟩
abbrev S4x100000x32x4 : Shape := ⟨4, ![4, 100000, 32, 4]⟩
abbrev S400000x128 : Shape := ⟨2, ![400000, 128]⟩
abbrev S400000x64 : Shape := ⟨2, ![400000, 64]⟩
abbrev S4x100000x64 : Shape := ⟨3, ![4, 100000, 64]⟩

abbrev nBuf : Space → Nat
  | .hbm => 76
  | .vmem => 0
  | .smem => 0
  | _ => 0

abbrev bufTy : (tb : Table) → Fin (tcTables nBuf tb) → BufTy
  | .hbm, ⟨0, _⟩ => ⟨S4x100000x32, .f32⟩
  | .hbm, ⟨1, _⟩ => ⟨S1600000, .f32⟩
  | .hbm, ⟨2, _⟩ => ⟨S128x64, .f32⟩
  | .hbm, ⟨3, _⟩ => ⟨S1600000, .i32⟩
  | .hbm, ⟨4, _⟩ => ⟨S1600000, .i32⟩
  | .hbm, ⟨5, _⟩ => ⟨S100000x32x4, .f32⟩
  | .hbm, ⟨6, _⟩ => ⟨S100000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S1600000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x100000x128, .f32⟩
  | .hbm, ⟨67, _⟩ => ⟨S1x100000x128, .f32⟩
  | .hbm, ⟨68, _⟩ => ⟨S1x100000x128, .f32⟩
  | .hbm, ⟨69, _⟩ => ⟨S1x100000x128, .f32⟩
  | .hbm, ⟨70, _⟩ => ⟨S4x100000x128, .f32⟩
  | .hbm, ⟨71, _⟩ => ⟨S4x100000x32x4, .f32⟩
  | .hbm, ⟨72, _⟩ => ⟨S4x100000x32x4, .f32⟩
  | .hbm, ⟨73, _⟩ => ⟨S400000x128, .f32⟩
  | .hbm, ⟨74, _⟩ => ⟨S400000x64, .f32⟩
  | .hbm, ⟨75, _⟩ => ⟨S4x100000x64, .f32⟩
  | _, _ => ⟨S4x100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]

class Facts₀ : Prop where
  transposes_S4x100000x32_S100000x32x4_1_2_0 : S4x100000x32.Transposes [1, 2, 0] S100000x32x4
  shapeCasts_S100000x32x4_S100000x128 : S100000x32x4.ShapeCasts S100000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  shapeCasts_S4x100000x128_S4x100000x32x4 : S4x100000x128.ShapeCasts S4x100000x32x4
  transposes_S4x100000x32x4_S4x100000x32x4_3_1_2_0 : S4x100000x32x4.Transposes [3, 1, 2, 0] S4x100000x32x4
  shapeCasts_S4x100000x32x4_S400000x128 : S4x100000x32x4.ShapeCasts S400000x128
  shapeCasts_S400000x64_S4x100000x64 : S400000x64.ShapeCasts S4x100000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S400000x128_S128x64_S400000x64_1_0_0_1_n_n_wf : DotDims.WF S400000x128 S128x64 S400000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf

class Facts : Prop extends Facts₀ where

variable [Facts]
-- ==== Proof.KAround.lean ====
/-
  The program around its one kernel launch, for any reading of the floats.

  The entry function is 69 host operations, the launch, and one reshape of the launch's result. The
  host operations before the launch write only their own result buffers, so the launch finds each of
  the five argument arrays as it was at the start, and finds the buffer of the re-laid Chebyshev
  stack (the launch's first operand) at whatever those operations computed: the contents `V` below,
  the fold of the 69 operations over the starting memory, never opened here. The reshape after the
  launch reads the launch's result and writes a buffer of its own, so it touches no operand of the
  launch and no argument.

  Three of the launch's operands are arrays the pipeline stages: the re-laid stack (25 blocks of 16000
  rows, one per grid point), the weight matrix (one block, fetched once) and the result (25 blocks,
  each written back after its point). A block of an operand at a point is the array read through that
  block's view; the staging buffer of an input holds its block at every point, fetched there or kept
  from an earlier point. From a run of the program to the pipeline library's post — every staged
  array at what the write-backs leave, every other buffer as the reshape leaves it — the frame claim
  follows: the four arguments the pipeline does not stage by the post's second clause, the weight
  matrix, an input the pipeline stages, by the first.
-/
import proofs.«113112_j34514357191197_1_alg».proof.Proof.Gen.Kernel.Launch
import proofs.«113112_j34514357191197_1_alg».proof.Proof.Gen.Kernel.Skeleton
import proofs.«113112_j34514357191197_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations around the launch -/

/-- The contents of the core's buffers when the launch is entered: the 69 host operations folded over the
    starting memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

set_option maxHeartbeats 4000000 in
/-- No host operation before the launch allocates. -/
theorem before_fresh : (hostOps0 : List (HloOp τ sig (Elt F))).Forall fun op => op.fresh = ∅ := by
  simp only [List.Forall]; repeat' constructor
/-- Nor does the reshape after it. -/
theorem after_fresh : (hostOps1 : List (HloOp τ sig (Elt F))).Forall fun op => op.fresh = ∅ := by
  simp only [List.Forall]; repeat' constructor

/-- The entry function is the host operations, the launch, and the reshape: run from the starting memory it
    reaches the launch with the buffers at `V`, and continues after it with the reshape. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the launch touches only buffers that are unscoped (the pipeline's arrays or buffers that
    bypass it). -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And it writes its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)

/-! ## The arguments are not written -/

/-- No host operation before the region writes `main_arg0`: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg1`: the region finds it as launched. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg2`: the region finds it as launched. -/
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg3`: the region finds it as launched. -/
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg4`: the region finds it as launched. -/
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after the region, and `main_arg0` is no array of the pipeline: it ends as launched. -/
theorem exit_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact entry_main_arg0 m c

/-- Nor does the reshape after the region, and `main_arg1` is no array of the pipeline: it ends as launched. -/
theorem exit_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact entry_main_arg1 m c

/-- Nor does the reshape after the region, and `main_arg3` is no array of the pipeline: it ends as launched. -/
theorem exit_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact entry_main_arg3 m c

/-- Nor does the reshape after the region, and `main_arg4` is no array of the pipeline: it ends as launched. -/
theorem exit_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact entry_main_arg4 m c

/-! ## The blocks of the staged arrays -/

/-- Block `t` of the array of window `w`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the re-laid stack holds its block at every point, for any proof data whose array is the
    entry contents and whose body leaves the block in place. -/
theorem staged0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weight matrix holds the matrix at every point: it is fetched at the first and its
    block never moves. -/
theorem staged1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the pipeline library's post -/

/-- From a run that ends with every staged array at what the proof data's write-backs leave and every other
    unscoped buffer as the reshape leaves it, the five argument arrays end as they started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_main_arg0 m dats c),
     ((h c).2 main_arg1 (Pipeline.mem_restRefs_of main_arg1 (by decide) (by decide))).trans (exit_main_arg1 m dats c),
     ((h c).1 1).trans (((dats 0 c).arrAt_in 1 rfl _).trans ((hA c 1).trans (entry_main_arg2 m c))),
     ((h c).2 main_arg3 (Pipeline.mem_restRefs_of main_arg3 (by decide) (by decide))).trans (exit_main_arg3 m dats c),
     ((h c).2 main_arg4 (Pipeline.mem_restRefs_of main_arg4 (by decide) (by decide))).trans (exit_main_arg4 m dats c)⟩) h

end Cert.Kernel.Hand

end
-- ==== Proof.KBody.lean ====
/-
  The kernel body at one grid point, for any reading of the floats.

  At a grid point the body is handed three whole staging buffers: a block `X` of 16000 rows of the
  400000 × 128 operand, the whole 128 × 64 weight matrix `W`, and the 16000 × 64 block of the
  result. It reads `X` and `W` whole, reads the result block (a value it never uses), and overwrites
  the result block whole with one value: the product of `X` and `W` accumulated into zeros, each
  operand first narrowed to the matrix unit's input format. That value, as a function of the two
  loaded blocks, is the payload `k0_pay1`.

  Every access goes through the rectangle that starts at the origin and spans the whole buffer, so a
  load reads the buffer's contents as they are and the one store leaves exactly its payload: the
  block after the body is `k0_pay1 X W`, whatever it held before, and `X` and `W` are unchanged.
-/
import proofs.«113112_j34514357191197_1_alg».proof.Proof.Gen.Kernel.Launch
import proofs.«113112_j34514357191197_1_alg».proof.Proof.Gen.Kernel.Skeleton
import proofs.«113112_j34514357191197_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a two-axis buffer, spelt as the program spells it. -/
theorem origin2 : (![0, 0] : Fin 2 → Nat) = fun _ => 0 := funext fun a => by fin_cases a <;> rfl

/-- The rectangle of the one store: the whole result block. -/
abbrev outRect : Rect S16000x64 := Rect.unit (s := S16000x64) ![0, 0] S16000x64.size inb_S16000x64_S16000x64_0_0

/-- The whole-block rectangle holds every index of the block. -/
theorem outRect_covers (p0 : Vec F S16000x64 .f32) (y : S16000x64.Idx) :
    ∃ pc ∈ ([⟨outRect, p0⟩] : List (View.Piece (Elt F) S16000x64 .f32)), y ∈ pc.1.set :=
  View.cover_of_tiled [⟨outRect, p0⟩] S16000x64.size (by rfl) y

set_option maxHeartbeats 1000000 in
/-- The body on whole staging buffers holding `x` (the row block), `w` (the weights) and anything (the result
    block) runs to its continuation with `x` and `w` in place and the result block at `k0_pay1 x w`. -/
theorem body_triple (c : Dev nD) (E : Set ℕ) (i : grid0.Coords)
    (arg1 : Memref sig .tc .vmem S16000x128 .f32) (harg1 : arg1.IsWhole)
    (arg2 : Memref sig .tc .vmem S128x64 .f32) (harg2 : arg2.IsWhole)
    (arg3 : Memref sig .tc .vmem S16000x64 .f32) (harg3 : arg3.IsWhole)
    (x : Vec F S16000x128 .f32) (w : Vec F S128x64 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (outRect_covers _), View.canon_unit_zero origin2]
  simp only [View.readAt_eq_ld, View.ld_unit_zero (S := S16000x128) origin2, View.ld_unit_zero (S := S128x64) origin2]

end Cert.Kernel.Hand

end
-- ==== Proof.KFrame.lean ====
/-
  The frame of the program: it runs to the end, faults nowhere and leaves its five arguments as it
  found them — for any reading of the floats.

  The proof data of the one pipeline. Its arrays are the buffers as the launch finds them. After the
  body at grid point `t`, the staging buffer of the re-laid stack still holds block `t` of that array,
  the staging buffer of the weight matrix still holds the matrix, and the staging buffer of the
  result holds the body's one stored value computed from those two: the product of block `t` with
  the weights (`k0_pay1`). The pipeline keeps no state of its own between points, owes no signal,
  and holds every buffer whole.

  With that, the body's triple at one point is the library's obligation at every point: the inputs'
  staging buffers hold their blocks whether the point fetched them or not, the result's staging
  buffer may hold anything, and the body leaves the three buffers as the proof data says. The
  library's launch theorem then gives the run of the whole program: the host operations, the 25 grid
  points with their fetches and write-backs, the reshape.
-/
import proofs.«113112_j34514357191197_1_alg».proof.Proof.KAround
import proofs.«113112_j34514357191197_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the pipeline's arrays hold at entry and what each staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ _ := Pipeline.ΦA spec0 c
  q _ := fullShare
  owed _ := 0

/-- Its arrays are the entry contents (read off the definition, the fold of host operations left closed). -/
theorem arrays_eq (c : Dev nD) (w : Fin cfg0.W) : (dats m 0 c).A w = V m c (Pipeline.arrRef spec0 w) := by
  dsimp only [dats]

theorem after_stack (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_result (c : Dev nD) (t : Fin cfg0.N) :
    (dats m 0 c).after 2 t = k0_pay1 (iblk m c 0 t) (iblk m c 1 t) := by dsimp only [dats]

/-- Each input's staging buffer holds its block when the body starts, fetched at that point or not. -/
theorem before_stack (c : Dev nD) (t : Fin cfg0.N) (d) : (dats m 0 c).before 0 t d = iblk m c 0 t :=
  staged0_of m (dats m 0 c) (arrays_eq m c 0) (after_stack m c) t d
theorem before_weights (c : Dev nD) (t : Fin cfg0.N) (d) : (dats m 0 c).before 1 t d = iblk m c 1 t :=
  staged1_of m (dats m 0 c) (arrays_eq m c 1) (after_weights m c) t d

/-! ## The body at every point -/

/-- What the body is called with at point `t`: the pipeline's state, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the pipeline's
    state passes through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_stack, before_weights]
  rw [show (dats m 0 c).Φ t.succ = (dats m 0 c).Φ t.castSucc from rfl,
    show (dats m 0 c).owesAt () t.succ = (dats m 0 c).owesAt () t.castSucc from rfl,
    after_stack, after_weights, after_result]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation for the body, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates without a fault, every
    array of the pipeline ending at what the write-backs leave and every other unscoped buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := arrays_eq m) (hΦ := fun _ _ => rfl)

/-- The program runs, faults nowhere, and its five arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays_eq m) (run_main m ρ)

end Cert.Kernel.Hand

end
-- ==== Proof.KIAround.lean ====
/-
  The program around its one kernel launch, for any reading of the floats.

  The entry function is 69 host operations, the launch, and one reshape of the launch's result. The
  host operations before the launch write only their own result buffers, so the launch finds each of
  the five argument arrays as it was at the start, and finds the buffer of the re-laid Chebyshev
  stack (the launch's first operand) at whatever those operations computed: the contents `V` below,
  the fold of the 69 operations over the starting memory, never opened here. The reshape after the
  launch reads the launch's result and writes a buffer of its own, so it touches no operand of the
  launch and no argument.

  Three of the launch's operands are arrays the pipeline stages: the re-laid stack (25 blocks of 16000
  rows, one per grid point), the weight matrix (one block, fetched once) and the result (25 blocks,
  each written back after its point). A block of an operand at a point is the array read through that
  block's view; the staging buffer of an input holds its block at every point, fetched there or kept
  from an earlier point. From a run of the program to the pipeline library's post — every staged
  array at what the write-backs leave, every other buffer as the reshape leaves it — the frame claim
  follows: the four arguments the pipeline does not stage by the post's second clause, the weight
  matrix, an input the pipeline stages, by the first.
-/
import proofs.«113112_j34514357191197_1_alg».proof.Proof.Gen.KernelIdeal.Launch
import proofs.«113112_j34514357191197_1_alg».proof.Proof.Gen.KernelIdeal.Skeleton
import proofs.«113112_j34514357191197_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations around the launch -/

/-- The contents of the core's buffers when the launch is entered: the 69 host operations folded over the
    starting memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

set_option maxHeartbeats 4000000 in
/-- No host operation before the launch allocates. -/
theorem before_fresh : (hostOps0 : List (HloOp τ sig (Elt F))).Forall fun op => op.fresh = ∅ := by
  simp only [List.Forall]; repeat' constructor
/-- Nor does the reshape after it. -/
theorem after_fresh : (hostOps1 : List (HloOp τ sig (Elt F))).Forall fun op => op.fresh = ∅ := by
  simp only [List.Forall]; repeat' constructor

/-- The entry function is the host operations, the launch, and the reshape: run from the starting memory it
    reaches the launch with the buffers at `V`, and continues after it with the reshape. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the launch touches only buffers that are unscoped (the pipeline's arrays or buffers that
    bypass it). -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And it writes its own result buffer, which is no array of the pipeline. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)

/-! ## The arguments are not written -/

/-- No host operation before the region writes `main_arg0`: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg1`: the region finds it as launched. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg2`: the region finds it as launched. -/
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg3`: the region finds it as launched. -/
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host operation before the region writes `main_arg4`: the region finds it as launched. -/
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does the reshape after the region, and `main_arg0` is no array of the pipeline: it ends as launched. -/
theorem exit_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact entry_main_arg0 m c

/-- Nor does the reshape after the region, and `main_arg1` is no array of the pipeline: it ends as launched. -/
theorem exit_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact entry_main_arg1 m c

/-- Nor does the reshape after the region, and `main_arg3` is no array of the pipeline: it ends as launched. -/
theorem exit_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact entry_main_arg3 m c

/-- Nor does the reshape after the region, and `main_arg4` is no array of the pipeline: it ends as launched. -/
theorem exit_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact entry_main_arg4 m c

/-! ## The blocks of the staged arrays -/

/-- Block `t` of the array of window `w`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the re-laid stack holds its block at every point, for any proof data whose array is the
    entry contents and whose body leaves the block in place. -/
theorem staged0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the weight matrix holds the matrix at every point: it is fetched at the first and its
    block never moves. -/
theorem staged1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the pipeline library's post -/

/-- From a run that ends with every staged array at what the proof data's write-backs leave and every other
    unscoped buffer as the reshape leaves it, the five argument arrays end as they started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_main_arg0 m dats c),
     ((h c).2 main_arg1 (Pipeline.mem_restRefs_of main_arg1 (by decide) (by decide))).trans (exit_main_arg1 m dats c),
     ((h c).1 1).trans (((dats 0 c).arrAt_in 1 rfl _).trans ((hA c 1).trans (entry_main_arg2 m c))),
     ((h c).2 main_arg3 (Pipeline.mem_restRefs_of main_arg3 (by decide) (by decide))).trans (exit_main_arg3 m dats c),
     ((h c).2 main_arg4 (Pipeline.mem_restRefs_of main_arg4 (by decide) (by decide))).trans (exit_main_arg4 m dats c)⟩) h

end Cert.KernelIdeal.Hand

end
-- ==== Proof.KIBody.lean ====
/-
  The kernel body at one grid point, for any reading of the floats.

  At a grid point the body is handed three whole staging buffers: a block `X` of 16000 rows of the
  400000 × 128 operand, the whole 128 × 64 weight matrix `W`, and the 16000 × 64 block of the
  result. It reads `X` and `W` whole, reads the result block (a value it never uses), and overwrites
  the result block whole with one value: the product of `X` and `W` accumulated into zeros, each
  operand first narrowed to the matrix unit's input format. That value, as a function of the two
  loaded blocks, is the payload `k0_pay1`.

  Every access goes through the rectangle that starts at the origin and spans the whole buffer, so a
  load reads the buffer's contents as they are and the one store leaves exactly its payload: the
  block after the body is `k0_pay1 X W`, whatever it held before, and `X` and `W` are unchanged.
-/
import proofs.«113112_j34514357191197_1_alg».proof.Proof.Gen.KernelIdeal.Launch
import proofs.«113112_j34514357191197_1_alg».proof.Proof.Gen.KernelIdeal.Skeleton
import proofs.«113112_j34514357191197_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a two-axis buffer, spelt as the program spells it. -/
theorem origin2 : (![0, 0] : Fin 2 → Nat) = fun _ => 0 := funext fun a => by fin_cases a <;> rfl

/-- The rectangle of the one store: the whole result block. -/
abbrev outRect : Rect S16000x64 := Rect.unit (s := S16000x64) ![0, 0] S16000x64.size inb_S16000x64_S16000x64_0_0

/-- The whole-block rectangle holds every index of the block. -/
theorem outRect_covers (p0 : Vec F S16000x64 .f32) (y : S16000x64.Idx) :
    ∃ pc ∈ ([⟨outRect, p0⟩] : List (View.Piece (Elt F) S16000x64 .f32)), y ∈ pc.1.set :=
  View.cover_of_tiled [⟨outRect, p0⟩] S16000x64.size (by rfl) y

set_option maxHeartbeats 1000000 in
/-- The body on whole staging buffers holding `x` (the row block), `w` (the weights) and anything (the result
    block) runs to its continuation with `x` and `w` in place and the result block at `k0_pay1 x w`. -/
theorem body_triple (c : Dev nD) (E : Set ℕ) (i : grid0.Coords)
    (arg1 : Memref sig .tc .vmem S16000x128 .f32) (harg1 : arg1.IsWhole)
    (arg2 : Memref sig .tc .vmem S128x64 .f32) (harg2 : arg2.IsWhole)
    (arg3 : Memref sig .tc .vmem S16000x64 .f32) (harg3 : arg3.IsWhole)
    (x : Vec F S16000x128 .f32) (w : Vec F S128x64 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (outRect_covers _), View.canon_unit_zero origin2]
  simp only [View.readAt_eq_ld, View.ld_unit_zero (S := S16000x128) origin2, View.ld_unit_zero (S := S128x64) origin2]

end Cert.KernelIdeal.Hand

end
-- ==== Proof.KIFrame.lean ====
/-
  The frame of the program: it runs to the end, faults nowhere and leaves its five arguments as it
  found them — for any reading of the floats.

  The proof data of the one pipeline. Its arrays are the buffers as the launch finds them. After the
  body at grid point `t`, the staging buffer of the re-laid stack still holds block `t` of that array,
  the staging buffer of the weight matrix still holds the matrix, and the staging buffer of the
  result holds the body's one stored value computed from those two: the product of block `t` with
  the weights (`k0_pay1`). The pipeline keeps no state of its own between points, owes no signal,
  and holds every buffer whole.

  With that, the body's triple at one point is the library's obligation at every point: the inputs'
  staging buffers hold their blocks whether the point fetched them or not, the result's staging
  buffer may hold anything, and the body leaves the three buffers as the proof data says. The
  library's launch theorem then gives the run of the whole program: the host operations, the 25 grid
  points with their fetches and write-backs, the reshape.
-/
import proofs.«113112_j34514357191197_1_alg».proof.Proof.KIAround
import proofs.«113112_j34514357191197_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the pipeline's arrays hold at entry and what each staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ _ := Pipeline.ΦA spec0 c
  q _ := fullShare
  owed _ := 0

/-- Its arrays are the entry contents (read off the definition, the fold of host operations left closed). -/
theorem arrays_eq (c : Dev nD) (w : Fin cfg0.W) : (dats m 0 c).A w = V m c (Pipeline.arrRef spec0 w) := by
  dsimp only [dats]

theorem after_stack (c : Dev nD) (t : Fin cfg0.N) : (dats m 0 c).after 0 t = iblk m c 0 t := by dsimp only [dats]
theorem after_weights (c : Dev nD) (t : Fin cfg0.N) : (dats m 0 c).after 1 t = iblk m c 1 t := by dsimp only [dats]
theorem after_result (c : Dev nD) (t : Fin cfg0.N) :
    (dats m 0 c).after 2 t = k0_pay1 (iblk m c 0 t) (iblk m c 1 t) := by dsimp only [dats]

/-- Each input's staging buffer holds its block when the body starts, fetched at that point or not. -/
theorem before_stack (c : Dev nD) (t : Fin cfg0.N) (d) : (dats m 0 c).before 0 t d = iblk m c 0 t :=
  staged0_of m (dats m 0 c) (arrays_eq m c 0) (after_stack m c) t d
theorem before_weights (c : Dev nD) (t : Fin cfg0.N) (d) : (dats m 0 c).before 1 t d = iblk m c 1 t :=
  staged1_of m (dats m 0 c) (arrays_eq m c 1) (after_weights m c) t d

/-! ## The body at every point -/

/-- What the body is called with at point `t`: the pipeline's state, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the pipeline's
    state passes through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_stack, before_weights]
  rw [show (dats m 0 c).Φ t.succ = (dats m 0 c).Φ t.castSucc from rfl,
    show (dats m 0 c).owesAt () t.succ = (dats m 0 c).owesAt () t.castSucc from rfl,
    after_stack, after_weights, after_result]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation for the body, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates without a fault, every
    array of the pipeline ending at what the write-backs leave and every other unscoped buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_around m Variants.none) (hA := arrays_eq m) (hΦ := fun _ _ => rfl)

/-- The program runs, faults nowhere, and its five arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (arrays_eq m) (run_main m ρ)

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Projection.lean ====
/-
  The specification of the final projection: a matrix with 128 columns times the 128 × 64 weight
  matrix, on the extended reals. Entry `(p, c)` of the product is `Σ_{q < 128} xs[p, q] · w[q, c]`, the
  terms added in the order of `q`. Both programs end with this function of the same two matrices: the
  kernel computes it 16000 rows at a time, the reference all 400000 rows at once, and a row of the
  product depends on no other row of `xs`.
-/
import proofs.«113112_j34514357191197_1_alg».proof.Proof.LibPlainDot

noncomputable section

open scoped BigOperators

namespace Cert.Projection

open Idealize.ShloMosaic Idealize.ShloMosaic.ValueIdx

/-- Row `p`, column `c` of `xs · w`. -/
def entry {M : Nat} (xs : (⟨2, ![M, 128]⟩ : Shape).Idx → EReal) (w : (⟨2, ![128, 64]⟩ : Shape).Idx → EReal)
    (p : Fin M) (c : Fin 64) : EReal :=
  ∑ q : Fin 128, xs (ix2 p q) * w (ix2 q c)

/-- The product as a whole array. -/
def prod {M : Nat} (xs : (⟨2, ![M, 128]⟩ : Shape).Idx → EReal) (w : (⟨2, ![128, 64]⟩ : Shape).Idx → EReal) :
    (⟨2, ![M, 64]⟩ : Shape).Idx → EReal :=
  fun i => entry xs w (i 0) (i 1)

theorem prod_apply {M : Nat} (xs : (⟨2, ![M, 128]⟩ : Shape).Idx → EReal) (w : (⟨2, ![128, 64]⟩ : Shape).Idx → EReal)
    (i : (⟨2, ![M, 64]⟩ : Shape).Idx) : prod xs w i = ∑ q : Fin 128, xs (ix2 (i 0) q) * w (ix2 q (i 1)) := rfl

end Cert.Projection

end
-- ==== Proof.KIBlocks.lean ====
/-
  The blocks of the launch's operands at a grid point, as index arithmetic.

  Grid point `t` (of 25) is handed rows `16000·t … 16000·t + 15999` of the re-laid Chebyshev stack
  and the whole weight matrix, and writes its result back to the same rows of the result array: the
  three index maps are decided once over the grid. So row `p` of the stack's block sits at the row of
  the stack where the result's block has its row `p`, columns unchanged; and the weights' block is the
  matrix itself. A block of an operand is the operand's array, as the launch finds it, read through
  the block's index map; the array's contents are left as they are, never computed.
-/
import proofs.«113112_j34514357191197_1_alg».proof.Proof.KIFrame
import proofs.«113112_j34514357191197_1_alg».proof.Proof.Projection
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Projection

variable (m : (ℓ : Loc nD τ sig) → Buf (Elt Ideal) ℓ) (ρ : Dev nD → PrngReg)

/-! ## The index maps, over the grid -/

/-- Point `t` takes block `t` of the stack's rows and writes block `t` of the result's rows; every other block
    index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p`, column `q` of the stack's block at point `t` sits at the row of the stack where the result's block has
    its row `p`. -/
theorem stack_rows (t : Fin cfg0.N) (j : S16000x64.Idx) (q : Fin 128) :
    ((cfg0.win 0).blk t).view.emb (ix2 (j 0) q) = ix2 ((((cfg0.win 2).blk t).view.emb j) 0) q := by
  obtain ⟨e00, e01, e10, e11, e20, e21⟩ := index_facts t
  funext a; apply Fin.ext
  match a with
  | ⟨0, _⟩ => show win0_0.index t (0 : Fin 2) * 16000 + 1 * (j 0).val = win0_2.index t (0 : Fin 2) * 16000 + 1 * (j 0).val; omega
  | ⟨1, _⟩ => show win0_0.index t (1 : Fin 2) * 128 + 1 * q.val = q.val; omega

/-- The weights' one block is the whole matrix, and the result's blocks span all 64 columns. -/
theorem weight_cols (t : Fin cfg0.N) (j : S16000x64.Idx) (q : Fin 128) :
    ((cfg0.win 1).blk t).view.emb (ix2 q (j 1)) = ix2 q ((((cfg0.win 2).blk t).view.emb j) 1) := by
  obtain ⟨e00, e01, e10, e11, e20, e21⟩ := index_facts t
  funext a; apply Fin.ext
  match a with
  | ⟨0, _⟩ => show win0_1.index t (0 : Fin 2) * 128 + 1 * q.val = q.val; omega
  | ⟨1, _⟩ => show win0_1.index t (1 : Fin 2) * 64 + 1 * (j 1).val = win0_2.index t (1 : Fin 2) * 64 + 1 * (j 1).val; omega

/-! ## A block is its array read through the block's index map -/

/-- The stack's block at a point. -/
theorem stack_block (c : Dev nD) (t : Fin cfg0.N) (y : S16000x128.Idx) :
    iblk m c 0 t y = (V m c (Pipeline.arrRef spec0 0) : S400000x128.Idx → EReal) (((cfg0.win 0).blk t).view.emb y) := by
  unfold iblk
  generalize V m c (Pipeline.arrRef spec0 0) = A
  rw [View.read_apply]
  exact cast_eq _ _

/-- The weights' block at a point. -/
theorem weight_block (c : Dev nD) (t : Fin cfg0.N) (y : S128x64.Idx) :
    iblk m c 1 t y = (V m c (Pipeline.arrRef spec0 1) : S128x64.Idx → EReal) (((cfg0.win 1).blk t).view.emb y) := by
  unfold iblk
  generalize V m c (Pipeline.arrRef spec0 1) = A
  rw [View.read_apply]
  exact cast_eq _ _

end Cert.KernelIdeal.Hand

end
-- ==== Proof.KIPayload.lean ====
/-
  The value the kernel body stores, read at an index, on the extended reals.

  At `Ideal` narrowing a float to the matrix unit's input format changes nothing, and a product
  accumulated into zeros is the plain sum of products. So the block the body stores is, at row `p`
  and column `c`, `Σ_{q < 128} X[p, q] · W[q, c]` of the two blocks it loaded. If the loaded row block is
  a run of 16000 consecutive rows of a taller matrix `xs`, that is the same run of rows of the whole
  product `xs · w`: a row of the product depends on that row of `xs` alone.
-/
import proofs.«113112_j34514357191197_1_alg».proof.Proof.Gen.KernelIdeal.Skeleton
import proofs.«113112_j34514357191197_1_alg».proof.Proof.Projection
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx
open Cert.Projection

/-- The body's product contracts the rows' 128 entries against the weights' 128 rows, nothing else. -/
theorem dot_plain : Cert.PlainDot.IsPlain dot_S16000x128_S128x64_S16000x64_1_0_0_1_n_n := ⟨rfl, rfl, rfl, rfl, rfl, rfl⟩

/-- Narrowing and the same-shape cast are the identity at `Ideal`: the matrix unit is fed the loaded blocks. -/
theorem payload_eq (x : FVec Ideal S16000x128 .f32) (w : FVec Ideal S128x64 .f32) :
    k0_pay1 (F := Ideal) x w
      = matmul (F := Ideal) dot_S16000x128_S128x64_S16000x64_1_0_0_1_n_n none (φ₁ := .f32) (φ₂ := .f32) x w
          (constant (F := Ideal) S16000x64 .f32 0x00000000#32) := by
  unfold k0_pay1
  rw [shapeCast_self]
  rfl

/-- Row `j 0`, column `j 1` of the stored block is the sum over `q` of the loaded row's entry `q` times the
    weight at `(q, j 1)`. -/
theorem payload_apply (x : FVec Ideal S16000x128 .f32) (w : FVec Ideal S128x64 .f32) (j : S16000x64.Idx) :
    k0_pay1 (F := Ideal) x w j = ∑ q : Fin 128, x (ix2 (j 0) q) * w (ix2 q (j 1)) := by
  obtain ⟨p, c, rfl⟩ : ∃ (p : Fin 16000) (c : Fin 64), j = ix2 p c := ⟨j 0, j 1, eq_ix2 j⟩
  rw [payload_eq]
  exact Cert.PlainDot.matmul_zero_apply dot_plain none x w p c

/-- If the loaded row block `X` is a run of rows of `xs` and the loaded weights `W` are `w`, each read through an
    index map, and the maps send row `p` of the block to the row of `xs` that the result's map sends row `p` to,
    columns unchanged, then the stored block is the whole product `xs · w` read through the result's map. -/
theorem block_rows (xs : S400000x128.Idx → EReal) (w : S128x64.Idx → EReal)
    (X : FVec Ideal S16000x128 .f32) (W : FVec Ideal S128x64 .f32)
    (e0 : S16000x128.Idx → S400000x128.Idx) (e1 : S128x64.Idx → S128x64.Idx) (e2 : S16000x64.Idx → S400000x64.Idx)
    (hX : ∀ y, X y = xs (e0 y)) (hW : ∀ y, W y = w (e1 y))
    (h0 : ∀ (j : S16000x64.Idx) (q : Fin 128), e0 (ix2 (j 0) q) = ix2 ((e2 j) 0) q)
    (h1 : ∀ (j : S16000x64.Idx) (q : Fin 128), e1 (ix2 q (j 1)) = ix2 q ((e2 j) 1))
    (j : S16000x64.Idx) :
    k0_pay1 (F := Ideal) X W j = prod (M := 400000) xs w (e2 j) := by
  refine (payload_apply X W j).trans ?_
  rw [prod_apply]
  exact Finset.sum_congr rfl fun q _ =>
    congrArg₂ (· * ·) ((hX _).trans (congrArg xs (h0 j q))) ((hW _).trans (congrArg w (h1 j q)))

end Cert.KernelIdeal.Hand

end
-- ==== Proof.KIArray.lean ====
/-
  From the 25 blocks to the whole result array, for the idealized kernel on the extended reals.

  What grid point `t` writes back is the value the body stored from the two blocks it loaded: rows
  `16000·t …` of the whole product `xs · w` of the stack and the weights as the launch finds them,
  because a row of the product depends on that row of `xs` alone. Row `r` of the result lies in the
  block of point `r / 16000`, so the 25 blocks cover the array and it ends holding `xs · w`, with `w`
  the weight argument as launched.
-/
import proofs.«113112_j34514357191197_1_alg».proof.Proof.KIBlocks
import proofs.«113112_j34514357191197_1_alg».proof.Proof.KIPayload

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Projection

variable (m : (ℓ : Loc nD τ sig) → Buf (Elt Ideal) ℓ) (ρ : Dev nD → PrngReg)

/-- Any array of the result's shape, read through the result's block at a point, is the array at the block's
    index map. -/
theorem result_block (G : S400000x64.Idx → EReal) (t : Fin cfg0.N) (j : S16000x64.Idx) :
    ((cfg0.win 2).blk t).view.read (Elt Ideal) G j = G (((cfg0.win 2).blk t).view.emb j) := by
  rw [View.read_apply]
  exact cast_eq _ _

/-- Point `t` writes back rows `16000·t …` of the whole product of the stack and the weights as the launch finds them. -/
theorem flushed_eq (c : Dev nD) (t : Fin cfg0.N) :
    (dats m 0 c).flushed 2 t = ((cfg0.win 2).blk t).view.read (Elt Ideal) (prod (M := 400000) (V m c (Pipeline.arrRef spec0 0) : S400000x128.Idx → EReal) (V m c (Pipeline.arrRef spec0 1) : S128x64.Idx → EReal)) := by
  show (cfg0.win 2).cut (grid0.coords t) ((dats m 0 c).after 2 t) = _
  rw [after_result]
  funext j
  show k0_pay1 (F := Ideal) (iblk m c 0 t) (iblk m c 1 t) j = _
  rw [result_block]
  exact block_rows (V m c (Pipeline.arrRef spec0 0) : S400000x128.Idx → EReal) (V m c (Pipeline.arrRef spec0 1) : S128x64.Idx → EReal) (iblk m c 0 t) (iblk m c 1 t)
    ((cfg0.win 0).blk t).view.emb ((cfg0.win 1).blk t).view.emb ((cfg0.win 2).blk t).view.emb
    (stack_block m c t) (weight_block m c t) (stack_rows t) (weight_cols t) j

/-! ## The blocks cover the result -/

/-- An index of the result is in point `t`'s block iff each coordinate is in the block's range. -/
theorem mem_block (t : Fin cfg0.N) (i : S400000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v58).slice (win0_2.rect t)).set ↔ _
  rw [View.set_slice_whole, Rect.mem_set_unit]
  exact Iff.rfl

/-- Row `r` of the result is in the block of point `r / 16000`. -/
theorem blocks_cover (i : S400000x64.Idx) :
    ∃ t : Fin cfg0.N, (cfg0.win 2).flush t = true ∧ i ∈ ((cfg0.win 2).blk t).view.set := by
  have hi0 : (i 0).val < 400000 := (i 0).isLt
  have hi1 : (i 1).val < 64 := (i 1).isLt
  have hN : cfg0.N = 25 := N_0
  obtain ⟨t, ht⟩ : ∃ t : Fin cfg0.N, t.val = (i 0).val / 16000 := ⟨⟨(i 0).val / 16000, by rw [hN]; omega⟩, rfl⟩
  obtain ⟨_, _, _, _, e20, e21⟩ := index_facts t
  refine ⟨t, flush0_2 t, ?_⟩
  rw [mem_block]
  intro a
  match a with
  | ⟨0, _⟩ => show win0_2.index t (0 : Fin 2) * 16000 ≤ (i 0).val ∧ (i 0).val < win0_2.index t (0 : Fin 2) * 16000 + 16000; omega
  | ⟨1, _⟩ => show win0_2.index t (1 : Fin 2) * 64 ≤ (i 1).val ∧ (i 1).val < win0_2.index t (1 : Fin 2) * 64 + 64; omega

/-- The weight matrix as the launch finds it is the argument as launched. -/
theorem weights_as_launched (c : Dev nD) : (V m c (Pipeline.arrRef spec0 1) : S128x64.Idx → EReal) = (m ((c.tc : Thread nD τ).loc main_arg2) : S128x64.Idx → EReal) := entry_main_arg2 m c

/-- The result array after the launch is the whole product, the weights being the argument as launched. -/
theorem result_array (c : Dev nD) :
    (dats m 0 c).arrAt 2 cfg0.N = prod (M := 400000) (V m c (Pipeline.arrRef spec0 0) : S400000x128.Idx → EReal) (m ((c.tc : Thread nD τ).loc main_arg2) : S128x64.Idx → EReal) :=
  ((dats m 0 c).arrAt_eq_of_cover 2 _ (fun t _ => flushed_eq m c t) blocks_cover).trans
    (congrArg (prod (M := 400000) (V m c (Pipeline.arrRef spec0 0) : S400000x128.Idx → EReal)) (weights_as_launched m c))

end Cert.KernelIdeal.Hand

end
-- ==== Proof.KIRun.lean ====
/-
  The run of the idealized kernel with its result named, on the extended reals.

  After the launch the result array holds the product of the re-laid Chebyshev stack, as the launch
  found it, with the weight matrix as launched. The one operation after the launch reshapes that
  400000 × 64 array to 4 × 100000 × 64 into the program's result buffer, and writes nothing else: the
  result is that reshape of the product, and the five arguments end as they started.
-/
import proofs.«113112_j34514357191197_1_alg».proof.Proof.KIArray
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Projection

variable (m : (ℓ : Loc nD τ sig) → Buf (Elt Ideal) ℓ) (ρ : Dev nD → PrngReg)

/-- The program's result: the product, re-laid as 4 × 100000 × 64, of the stack as the launch finds it and the weight
    matrix as launched. -/
def result (c : Dev nD) : Buf (Elt Ideal) ((c.tc : Thread nD τ).loc main_v59) :=
  shapeCast S4x100000x64
    (prod (M := 400000) (V m c (Pipeline.arrRef spec0 0) : S400000x128.Idx → EReal) (m ((c.tc : Thread nD τ).loc main_arg2) : S128x64.Idx → EReal))
    shapeCasts_S400000x64_S4x100000x64

/-- The launch's result array, read where the reshape reads it, is the product. -/
theorem launch_result (c : Dev nD) :
    Pipeline.withArrays (cfgs 0).spec c (V0 m c) (fun w => (dats m 0 c).arrAt w (cfgs 0).N) (Proc.devRef .tc main_v58)
      = prod (M := 400000) (V m c (Pipeline.arrRef spec0 0) : S400000x128.Idx → EReal) (m ((c.tc : Thread nD τ).loc main_arg2) : S128x64.Idx → EReal) :=
  (Pipeline.withArrays_arr spec0 launch0.win.arr_inj c (V0 m c) (fun w => (dats m 0 c).arrAt w cfg0.N) 2).trans (result_array m c)

/-- What the result buffer holds after the reshape. -/
theorem tail_value (c : Dev nD) :
    Pipeline.afterTail₀ cfgs (dats m) 0 (V0 m) [hostOps1] c main_v59 = result m c := by
  unfold Pipeline.afterTail₀
  show StableHlo.after hostOps1 _ (Proc.devRef .tc main_v59) = _
  after_results
  rw [launch_result]
  rfl

/-- Every weakly fair execution of the idealized kernel terminates without a fault, with the result buffer at the
    re-laid product and the five arguments as they started. -/
theorem kernel_run : θ_run defs (onTc (τ := τ) (main (F := Ideal))) ⟨m, fun _ => 0, ρ⟩ (fun r => ∀ c : Dev nD,
      r.2.mem ((c.tc : Thread nD τ).loc main_v59) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v59 (Pipeline.mem_restRefs_of main_v59 (by decide) (by decide))).trans (tail_value m c),
     ((h c).2 main_arg0 (Pipeline.mem_restRefs_of main_arg0 (by decide) (by decide))).trans (exit_main_arg0 m (dats m) c),
     ((h c).2 main_arg1 (Pipeline.mem_restRefs_of main_arg1 (by decide) (by decide))).trans (exit_main_arg1 m (dats m) c),
     ((h c).1 1).trans (((dats m 0 c).arrAt_in 1 rfl _).trans ((arrays_eq m c 1).trans (entry_main_arg2 m c))),
     ((h c).2 main_arg3 (Pipeline.mem_restRefs_of main_arg3 (by decide) (by decide))).trans (exit_main_arg3 m (dats m) c),
     ((h c).2 main_arg4 (Pipeline.mem_restRefs_of main_arg4 (by decide) (by decide))).trans (exit_main_arg4 m (dats m) c)⟩)
    (run_main m ρ)

end Cert.KernelIdeal.Hand

end
-- ==== Proof.RefValue.lean ====
/-
  What the idealized reference computes, on the extended reals: its last two operations are the
  host's product of the re-laid Chebyshev stack with the weight matrix, contracting the stack's 128
  columns against the weights' 128 rows, and a reshape of the 400000 × 64 result to 4 × 100000 × 64.
  At `Ideal` the host's product is the plain sum of products, entry by entry: the same function the
  kernel's 25 blocks assemble.
-/
import proofs.«113112_j34514357191197_1_alg».proof.Proof.Gen.ReferenceIdeal.Read
import proofs.«113112_j34514357191197_1_alg».proof.Proof.Projection

noncomputable section

open scoped BigOperators

namespace Cert.ReferenceIdeal.Hand

open Cert.ReferenceIdeal Cert.ReferenceIdeal.Gen
open Idealize.ShloMosaic Idealize.ShloMosaic.TcCoe Idealize.SL.Sem Idealize.ShloMosaic.ValueIdx
open Cert.Projection

/-- The reference's product contracts the stack's columns against the weights' rows, nothing else. -/
theorem dot_plain : Cert.PlainDot.IsPlain dot_S400000x128_S128x64_S400000x64_1_0_0_1_n_n := ⟨rfl, rfl, rfl, rfl, rfl, rfl⟩

/-- The host's product of a 400000 × 128 matrix with the weights is the specification's product. -/
theorem product_eq (xs : S400000x128.Idx → EReal) (w : S128x64.Idx → EReal) :
    Host.dotGeneral (F := Ideal) dot_S400000x128_S128x64_S400000x64_1_0_0_1_n_n none (φ₁ := .f32) (φ₂ := .f32) xs w = prod (M := 400000) xs w := by
  funext i
  obtain ⟨p, c, rfl⟩ : ∃ (p : Fin 400000) (c : Fin 64), i = ix2 p c := ⟨i 0, i 1, eq_ix2 i⟩
  exact Cert.PlainDot.dotGeneral_apply dot_plain none xs w p c

/-- The reference's result: the product of the stack's stage with the weights, re-laid. -/
theorem result_eq (x0 : (⟨S4x100000x32, .f32⟩ : BufTy).Contents (Elt Ideal)) (x1 : (⟨S1600000, .f32⟩ : BufTy).Contents (Elt Ideal))
    (x2 : (⟨S128x64, .f32⟩ : BufTy).Contents (Elt Ideal)) (x3 x4 : (⟨S1600000, .i32⟩ : BufTy).Contents (Elt Ideal)) :
    Read.val_main_v59 (F := Ideal) x0 x1 x2 x3 x4
      = shapeCast S4x100000x64 (prod (M := 400000) (Read.val_main_v57 (F := Ideal) x0 x1 x3 x4 : S400000x128.Idx → EReal) (x2 : S128x64.Idx → EReal))
          shapeCasts_S400000x64_S4x100000x64 := by
  unfold Read.val_main_v59 Read.val_main_v58
  rw [product_eq]

end Cert.ReferenceIdeal.Hand

end
-- ==== Proof.SharedStack.lean ====
/-
  Both programs build the same matrix before their last product. The kernel's 69 host operations
  before its launch are, one for one and literal for literal, the reference's first 69: the vertex-major
  re-layout of `x`, three rounds of the sparse operator (gather by the wrapped column index, scale by the
  edge value, scatter-add by the row index, subtract), the Chebyshev recurrence with its doubling, and the
  stack of the four terms re-laid as a 400000 × 128 matrix. So the buffer the launch reads its row
  blocks from holds the reference's own stage for that matrix, as a function of the kernel's four
  arguments it depends on. The operations themselves are never opened: each side is the same
  composition of the same functions, and the two are compared as written.
-/
import proofs.«113112_j34514357191197_1_alg».proof.Proof.KIAround
import proofs.«113112_j34514357191197_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 28400000 in
/-- The launch's first operand, as the launch finds it, is the reference's stage for the re-laid stack, of the
    kernel's own arguments. -/
theorem stack_eq (m : (ℓ : Loc nD τ sig) → Buf (Elt F) ℓ) (c : Dev nD) :
    V m c (Pipeline.arrRef spec0 0)
      = Cert.ReferenceIdeal.Read.val_main_v57 (F := F) (m ((c.tc : Thread nD τ).loc main_arg0)) (m ((c.tc : Thread nD τ).loc main_arg1))
          (m ((c.tc : Thread nD τ).loc main_arg3)) (m ((c.tc : Thread nD τ).loc main_arg4)) := by
  show StableHlo.after hostOps0 (fun b => m (c, b)) (Proc.devRef .tc main_v57) = _
  after_results_simp <;> rfl

end Cert.KernelIdeal.Hand

end
-- ==== Proof.lean ====
/-
  A graph-convolution layer by a Chebyshev recurrence, and its final projection as a Pallas kernel.

  Both programs take node features `x` (4 × 100000 × 32), a sparse operator in coordinate form (1600000
  edge values with their row and column indices) and a weight matrix `W` (128 × 64). They re-lay `x`
  vertex-major, apply the operator three times — gather rows by column index, scale by the edge
  value, scatter-add by row index, subtract — to form the four Chebyshev terms
  `T₀ = x, T₁ = L'x, T_k = 2 L' T_{k-1} − T_{k-2}`, stack them and re-lay the stack as a
  400000 × 128 matrix `xs`. Those 69 host operations are the same in the two programs, operation
  for operation and literal for literal. The programs differ only in how they form `xs · W`: the
  reference by one host product; the kernel by a launch over 25 grid points, each narrowing a block of
  16000 rows of `xs` and `W` to the matrix unit's input format and multiplying them into a zero
  accumulator. Both then reshape the 400000 × 64 product to 4 × 100000 × 64.

  On the extended reals the narrowing is the identity and both products are, entry by entry, the same
  sum `Σ_{q < 128} xs[p, q] · W[q, c]` in the same order, and a row of the product depends on one row
  of `xs` alone: so the 25 blocks assemble the reference's product, whatever `xs` holds, infinities
  included. The precondition is never used.

  The claims: each program runs to the end without a fault and leaves its five arguments as it found
  them; the idealized kernel is the kernel's own text read at the ideal instance (nothing was rewritten);
  and the two idealized programs, from memories that agree on the arguments, end with equal results.
-/
import proofs.«113112_j34514357191197_1_alg».proof.Defs
import proofs.«113112_j34514357191197_1_alg».proof.Proof.Gen.Kernel
import proofs.«113112_j34514357191197_1_alg».proof.Proof.Gen.KernelIdeal
import proofs.«113112_j34514357191197_1_alg».proof.Proof.Gen.ReferenceIdeal
import proofs.«113112_j34514357191197_1_alg».proof.Proof.Gen.Pre_finite_inputs
import proofs.«113112_j34514357191197_1_alg».proof.Proof.Gen.ReferenceIdeal.Run
import proofs.«113112_j34514357191197_1_alg».proof.Proof.Gen.ReferenceIdeal.Read
import proofs.«113112_j34514357191197_1_alg».proof.Proof.KFrame
import proofs.«113112_j34514357191197_1_alg».proof.Proof.KIRun
import proofs.«113112_j34514357191197_1_alg».proof.Proof.RefValue
import proofs.«113112_j34514357191197_1_alg».proof.Proof.SharedStack
import Idealize.ShloMosaic.Adequacy
import Idealize.ShloMosaic.Init

noncomputable section

namespace Cert.Proof

open Idealize.ShloMosaic Idealize.SL.Sem

/-- The kernel as printed runs, faults nowhere, and keeps its arguments. -/
theorem frame_kernel : Cert.frame_Kernel := fun m ρ _ => Cert.Kernel.Hand.frame m ρ

/-- So does its reading on the extended reals. -/
theorem frame_kernel_ideal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

/-- The kernel's result is the re-laid product of the stack its launch finds with the weights; the reference's is
    the re-laid product of its own stage for the stack with the weights; the launch finds exactly that stage, of
    arguments that agree. -/
theorem algebraic : Cert.algebraic_KernelIdeal_ReferenceIdeal := by
  intro m ρ m' ρ' _ hagree
  refine ⟨fun c => Cert.KernelIdeal.Hand.result m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2.1,
    (hagree c).2.2.2.2, Cert.ReferenceIdeal.Hand.result_eq, ← Cert.KernelIdeal.Hand.stack_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
